-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x256 : Shape := ⟨2, ![256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S200000x256 .f32) (main_arg1 : FVec F S256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S200000x256 : Shape := ⟨2, ![200000, 256]⟩
abbrev S256x256 : Shape := ⟨2, ![256, 256]⟩
abbrev S2000x256 : Shape := ⟨2, ![2000, 256]⟩
abbrev S2000 : Shape := ⟨1, ![2000]⟩
abbrev S2000x1 : Shape := ⟨2, ![2000, 1]⟩
abbrev S256 : Shape := ⟨1, ![256]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  reduces_S2000x256_S2000 : S2000x256.Reduces [1] S2000
  shapeCasts_S2000_S2000x1 : S2000.ShapeCasts S2000x1
  reduces_S256x256_S256 : S256x256.Reduces [1] S256
  bitsLt_bf16_f32 : FTy.bits .bf16 < FTy.bits .f32
  transposes_S256x256_p1_0_S256x256 : S256x256.Transposes [1, 0] S256x256
  shapeCasts_S256_S1x256 : S256.ShapeCasts S1x256
  broadcasts_S2000x1_S2000x256 : S2000x1.Broadcasts S2000x256
  broadcasts_S1x256_S2000x256 : S1x256.Broadcasts S2000x256
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x256 : Shape := ⟨2, ![200000, 256]⟩
abbrev S256x256 : Shape := ⟨2, ![256, 256]⟩
abbrev S_ : Shape := ⟨0, ![]⟩
abbrev S200000 : Shape := ⟨1, ![200000]⟩
abbrev S200000x1 : Shape := ⟨2, ![200000, 1]⟩
abbrev S256 : Shape := ⟨1, ![256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S200000x256, .f32⟩
  | .hbm, ⟨3, _⟩ => ⟨S_, .f32⟩
  | .hbm, ⟨4, _⟩ => ⟨S200000, .f32⟩
  | .hbm, ⟨5, _⟩ => ⟨S200000x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S256x256, .f32⟩
  | .hbm, ⟨10, _⟩ => ⟨S200000x256, .f32⟩
  | .hbm, ⟨11, _⟩ => ⟨S1x256, .f32⟩
  | .hbm, ⟨12, _⟩ => ⟨S200000x256, .f32⟩
  | .hbm, ⟨13, _⟩ => ⟨S200000x256, .f32⟩
  | .hbm, ⟨14, _⟩ => ⟨S200000x256, .f32⟩
  | .hbm, ⟨15, _⟩ => ⟨S_, .f32⟩
  | .hbm, ⟨16, _⟩ => ⟨S200000x256, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S_, .f32⟩
  | .hbm, ⟨23, _⟩ => ⟨S200000x256, .f32⟩
  | .hbm, ⟨24, _⟩ => ⟨S200000x256, .f32⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S_, .f32⟩
  | .hbm, ⟨29, _⟩ => ⟨S200000x256, .f32⟩
  | .hbm, ⟨30, _⟩ => ⟨S200000x256, .f32⟩
  | .hbm, ⟨31, _⟩ => ⟨S_, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000, .f32⟩
  | .hbm, ⟨36, _⟩ => ⟨S200000x1, .f32⟩
  | .hbm, ⟨37, _⟩ => ⟨S200000x256, .f32⟩
  | .hbm, ⟨38, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S200000x256_S200000_d1 : S200000x256.ReducesTo [1] S200000
  h_S_ : 0 < S_.numel
  bcast_S200000_S200000x1_0 : S200000.BroadcastsInDim S200000x1 (![0] : Fin 1 → Fin S200000x1.rank)
  reducesTo_S256x256_S256_d1 : S256x256.ReducesTo [1] S256
  transposes_S256x256_S256x256_1_0 : S256x256.Transposes [1, 0] S256x256
  bcast_S256_S1x256_1 : S256.BroadcastsInDim S1x256 (![1] : Fin 1 → Fin S1x256.rank)
  bcast_S200000x1_S200000x256_0_1 : S200000x1.BroadcastsInDim S200000x256 (![0, 1] : Fin 2 → Fin S200000x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  dot_S200000x256_S256x256_S200000x256_1_0_0_1_n_n_wf : DotDims.WF S200000x256 S256x256 S200000x256 [1] [0] [0] [1] [] []

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf

class Facts : Prop extends Facts₀ where

variable [Facts]
-- ==== Proof.LibPowOne.lean ====
/-
  Raising a non-negative extended real to the power one, spelt through the logarithm or as a power.

  Over the extended reals the exponential of `1 · log q` and the power `q ^ 1` are both `q` at a positive real `q`
  (`exp (log q) = q`), both `0` at `q = 0` (the logarithm is `-∞`, whose exponential is `0`, and `0 ^ 1 = 0`) and both
  `+∞` at `+∞`; they differ only at a negative `q` or `-∞`, where the logarithm's exponential is `0` and the power is
  not. Beside that law: the f32 words of `0.0` and `1.0` as the numbers they denote, division by one, and the sign of
  a reciprocal — what a value of the form `1 / (1 + d)` with `d ≥ 0` needs to be seen non-negative.
-/
import Idealize.ShloMosaic.PureOps.Ideal

noncomputable section

namespace Cert.PowOne

open Idealize.ShloMosaic

/-- The f32 word of `0.0` denotes `0`. -/
theorem word_zero : Ideal.ofBits .f32 0x00000000#32 = 0 := by
  simp [Ideal.ofBits, Ideal.ieee]

/-- The f32 word of `1.0` denotes `1`. -/
theorem word_one : Ideal.ofBits .f32 0x3F800000#32 = 1 := by
  simp [Ideal.ofBits, Ideal.ieee, -EReal.coe_mul]; norm_num

/-- Dividing by one changes nothing, at the infinities too. -/
theorem div_one (x : EReal) : Ideal.div x 1 = x := by
  rw [Ideal.div, if_neg one_ne_zero, ← EReal.coe_one, ← EReal.coe_inv, inv_one, EReal.coe_one, mul_one]

/-- The reciprocal of a non-negative number is non-negative (`1 / 0` is `+∞`, `1 / +∞` is `0`). -/
theorem one_div_nonneg {y : EReal} (hy : 0 ≤ y) : 0 ≤ Ideal.div 1 y := by
  unfold Ideal.div
  split
  · rw [if_pos zero_lt_one]; exact le_top
  · rw [one_mul]; exact EReal.inv_nonneg_of_nonneg hy

/-- On the non-negative extended reals `exp (1 · log q) = q ^ 1`: both are `q` at a positive real, `0` at `0`, `+∞` at `+∞`. -/
theorem exp_log_eq_pow_one {q : EReal} (h : 0 ≤ q) : Ideal.exp (1 * Ideal.log q) = Ideal.pow q 1 := by
  rw [one_mul]
  induction q using EReal.rec with
  | bot => exact absurd h (by simp)
  | top => simp
  | coe r =>
    have hr : 0 ≤ r := by exact_mod_cast h
    rw [← EReal.coe_one, Ideal.pow_coe_coe, Ideal.log_coe, Real.rpow_eq_pow, Real.rpow_one]
    by_cases h0 : r ≤ 0
    · obtain rfl : r = 0 := le_antisymm h0 hr
      rw [if_pos le_rfl, Ideal.exp_bot, EReal.coe_zero]
    · rw [if_neg h0, Ideal.exp_coe, Real.exp_log (lt_of_not_ge h0)]

end Cert.PowOne

end
-- ==== Proof.SoftAssign.lean ====
/-
  The Student-t soft assignment of one point to a family of cluster centres, over the extended reals.

  For a point `r` (a row of `D` coordinates) and centres `c j`, the squared distance to centre `j` is expanded as
  `|r|² + |c j|² − 2 · ⟨r, c j⟩` and clamped below at zero; the Student-t kernel with one degree of freedom turns it into
  `q j = 1 / (1 + d j / 1)`; the weight of the centre is `q j` raised to the power `(1 + 1) / 2 = 1`; and the assignment
  is the weight divided by the sum of the weights over all the centres.

  The power is spelt in two ways: as `exp (1 · log q)` and as `q ^ 1`. The clamped distance is never negative, so
  `1 + d` is at least one and `q` lies between `0` and `1` whatever the point and the centres are, infinite entries
  included. On that range the two spellings agree: for a positive real `q` both are `q` (`exp (log q) = q = q ^ 1`), and
  at `q = 0` the logarithm is `-∞`, its exponential `0`, and `0 ^ 1 = 0`. (They would differ at a negative `q`, where the
  logarithm's exponential is `0` and the power is `q`; the clamp is what excludes it.) No entry need be finite.
-/
import Idealize.ShloMosaic.PureOps.Ideal
import Idealize.ShloMosaic.Lib.ValueIdx
import proofs.«178325_j69681549410758_1_alg».proof.Proof.LibPowOne

noncomputable section

open scoped BigOperators

namespace Cert.SoftAssign

open Idealize.ShloMosaic Idealize.ShloMosaic.ValueIdx Cert.PowOne

/-! ## One point against the centres -/

variable {D K : ℕ}

/-- The squared distance from the point `r` to centre `j`: `|r|² + |c j|² − 2 · ⟨r, c j⟩`, clamped below at zero. -/
def dist (r : Fin D → EReal) (c : Fin K → Fin D → EReal) (j : Fin K) : EReal :=
  max (((∑ k, r k * r k) + ∑ k, c j k * c j k) - Ideal.ofBits .f32 0x40000000#32 * ∑ k, r k * c j k)
    (Ideal.ofBits .f32 0x00000000#32)

/-- The Student-t kernel of that distance, `1 / (1 + d / 1)`. -/
def kern (r : Fin D → EReal) (c : Fin K → Fin D → EReal) (j : Fin K) : EReal :=
  Ideal.div (Ideal.ofBits .f32 0x3F800000#32)
    (Ideal.ofBits .f32 0x3F800000#32 + Ideal.div (dist r c j) (Ideal.ofBits .f32 0x3F800000#32))

/-- The weight of centre `j`, the power `1` spelt through the logarithm: `exp (1 · log q)`. -/
def weightExpLog (r : Fin D → EReal) (c : Fin K → Fin D → EReal) (j : Fin K) : EReal :=
  Ideal.exp (Ideal.ofBits .f32 0x3F800000#32 * Ideal.log (kern r c j))

/-- The weight of centre `j`, the power `1` spelt as a power: `q ^ 1`. -/
def weightPow (r : Fin D → EReal) (c : Fin K → Fin D → EReal) (j : Fin K) : EReal :=
  Ideal.pow (kern r c j) (Ideal.ofBits .f32 0x3F800000#32)

/-- The assignment of the point to centre `j`: its weight over the sum of all the weights (first spelling). -/
def assignExpLog (r : Fin D → EReal) (c : Fin K → Fin D → EReal) (j : Fin K) : EReal :=
  Ideal.div (weightExpLog r c j) (∑ k, weightExpLog r c k)

/-- The assignment of the point to centre `j` (second spelling). -/
def assignPow (r : Fin D → EReal) (c : Fin K → Fin D → EReal) (j : Fin K) : EReal :=
  Ideal.div (weightPow r c j) (∑ k, weightPow r c k)

/-! ## The two spellings of the power agree -/

/-- The clamped distance is never negative. -/
theorem dist_nonneg (r : Fin D → EReal) (c : Fin K → Fin D → EReal) (j : Fin K) : 0 ≤ dist r c j := by
  unfold dist
  rw [word_zero]
  exact le_max_right _ _

/-- So the kernel value is never negative. -/
theorem kern_nonneg (r : Fin D → EReal) (c : Fin K → Fin D → EReal) (j : Fin K) : 0 ≤ kern r c j := by
  unfold kern
  rw [word_one, div_one]
  exact one_div_nonneg (add_nonneg zero_le_one (dist_nonneg r c j))

/-- The two spellings of a centre's weight agree. -/
theorem weight_eq (r : Fin D → EReal) (c : Fin K → Fin D → EReal) (j : Fin K) : weightExpLog r c j = weightPow r c j := by
  unfold weightExpLog weightPow
  rw [word_one]
  exact exp_log_eq_pow_one (kern_nonneg r c j)

/-- And so do the two spellings of the assignment. -/
theorem assign_eq (r : Fin D → EReal) (c : Fin K → Fin D → EReal) (j : Fin K) : assignExpLog r c j = assignPow r c j := by
  unfold assignExpLog assignPow
  rw [weight_eq r c j, Finset.sum_congr rfl fun k _ => weight_eq r c k]

/-! ## Every point of a table against the centres -/

variable {N : ℕ}

/-- Row `p` of a table of points. -/
abbrev row (z : (⟨2, ![N, D]⟩ : Shape).Idx → EReal) (p : Fin N) : Fin D → EReal := fun k => z (ix2 p k)

/-- A table of centres, one centre per row. -/
abbrev rows (c : (⟨2, ![K, D]⟩ : Shape).Idx → EReal) : Fin K → Fin D → EReal := fun b k => c (ix2 b k)

/-- The table of assignments: entry `(p, j)` is the assignment of point `p` to centre `j`, in the spelling `f`. -/
def table (f : (Fin D → EReal) → (Fin K → Fin D → EReal) → Fin K → EReal)
    (z : (⟨2, ![N, D]⟩ : Shape).Idx → EReal) (c : (⟨2, ![K, D]⟩ : Shape).Idx → EReal) : (⟨2, ![N, K]⟩ : Shape).Idx → EReal :=
  fun i => f (row z (i 0 : Fin N)) (rows c) (i 1 : Fin K)

theorem table_apply (f : (Fin D → EReal) → (Fin K → Fin D → EReal) → Fin K → EReal)
    (z : (⟨2, ![N, D]⟩ : Shape).Idx → EReal) (c : (⟨2, ![K, D]⟩ : Shape).Idx → EReal) (p : Fin N) (j : Fin K) :
    table f z c (ix2 p j) = f (row z p) (rows c) j := rfl

/-- The two spellings give one table. -/
theorem table_eq (z : (⟨2, ![N, D]⟩ : Shape).Idx → EReal) (c : (⟨2, ![K, D]⟩ : Shape).Idx → EReal) :
    table assignExpLog z c = table assignPow z c :=
  funext fun i => assign_eq _ _ _

end Cert.SoftAssign

end
-- ==== Proof.RefAssign.lean ====
/-
  The reference computes the table of soft assignments, in the spelling that raises the kernel value to the power one.

  Read one operation at a time at the entry `(p, q)`: the squared norm of row `p` of the points and of row `q` of the
  centres are sums over the 256 coordinates started from `0.0` (which adds nothing); the cross term is the product of the
  points with the transposed centres, so its entry is `∑ k, z (p, k) · c (q, k)`; the clamped distance, the Student-t
  kernel value and its power are pointwise; and the normaliser at `(p, q)` is the sum of row `p` of the weights, kept as
  a column and broadcast back along the row.
-/
import proofs.«178325_j69681549410758_1_alg».proof.Proof.Gen.ReferenceIdeal.Read
import proofs.«178325_j69681549410758_1_alg».proof.Proof.SoftAssign

noncomputable section

open scoped BigOperators

namespace Cert.RefAssign

open Cert.ReferenceIdeal Cert.ReferenceIdeal.Gen Cert.ReferenceIdeal.Read
open Idealize.ShloMosaic Idealize.ShloMosaic.ValueIdx Cert.SoftAssign Cert.PowOne

variable (x0 : (⟨S200000x256, .f32⟩ : BufTy).Contents (Elt Ideal)) (x1 : (⟨S256x256, .f32⟩ : BufTy).Contents (Elt Ideal))

/-! ## The operand indices at an entry -/

theorem e1 (p : Fin 200000) (k : Fin 256) : idx_main_v1 (ix1 p) k = ix2 p k :=
  funext fun a => Fin.ext (by match a with | ⟨0, _⟩ => rfl | ⟨1, _⟩ => rfl)
theorem e2 (p : Fin 200000) (u : Fin 1) : idx_main_v2 (ix2 p u) = ix1 p :=
  funext fun a => Fin.ext (by match a with | ⟨0, _⟩ => rfl)
theorem e8 (p : Fin 200000) (q : Fin 256) : idx_main_v8 (ix2 p q) = ix2 p (0 : Fin 1) :=
  funext fun a => Fin.ext (by match a with | ⟨0, _⟩ => rfl | ⟨1, _⟩ => rfl)
theorem e4 (j : Fin 256) (k : Fin 256) : idx_main_v4 (ix1 j) k = ix2 j k :=
  funext fun a => Fin.ext (by match a with | ⟨0, _⟩ => rfl | ⟨1, _⟩ => rfl)
theorem e7 (u : Fin 1) (q : Fin 256) : idx_main_v7 (ix2 u q) = ix1 q :=
  funext fun a => Fin.ext (by match a with | ⟨0, _⟩ => rfl)
theorem e9 (p : Fin 200000) (q : Fin 256) : idx_main_v9 (ix2 p q) = ix2 (0 : Fin 1) q :=
  funext fun a => Fin.ext (by match a with | ⟨0, _⟩ => rfl | ⟨1, _⟩ => rfl)
theorem e5 (k : Fin 256) (q : Fin 256) : idx_main_v5 (ix2 k q) = ix2 q k :=
  funext fun a => Fin.ext (by match a with | ⟨0, _⟩ => rfl | ⟨1, _⟩ => rfl)
theorem e6l (p : Fin 200000) (q : Fin 256) (k : Fin 256) : lidx_main_v6 (ix2 p q) k = ix2 p k :=
  funext fun a => Fin.ext (by match a with | ⟨0, _⟩ => rfl | ⟨1, _⟩ => rfl)
theorem e6r (p : Fin 200000) (q : Fin 256) (k : Fin 256) : ridx_main_v6 (ix2 p q) k = ix2 k q :=
  funext fun a => Fin.ext (by match a with | ⟨0, _⟩ => rfl | ⟨1, _⟩ => rfl)
theorem e24 (p : Fin 200000) (k : Fin 256) : idx_main_v24 (ix1 p) k = ix2 p k :=
  funext fun a => Fin.ext (by match a with | ⟨0, _⟩ => rfl | ⟨1, _⟩ => rfl)
theorem e25 (p : Fin 200000) (u : Fin 1) : idx_main_v25 (ix2 p u) = ix1 p :=
  funext fun a => Fin.ext (by match a with | ⟨0, _⟩ => rfl)
theorem e26 (p : Fin 200000) (q : Fin 256) : idx_main_v26 (ix2 p q) = ix2 p (0 : Fin 1) :=
  funext fun a => Fin.ext (by match a with | ⟨0, _⟩ => rfl | ⟨1, _⟩ => rfl)

/-! ## The stages at an entry -/

/-- The squared norm of point `p`, broadcast along its row. -/
theorem normZ_at (p : Fin 200000) (q : Fin 256) :
    val_main_v8 (F := Ideal) x0 (ix2 p q) = ∑ k : Fin 256, x0 (ix2 p k) * x0 (ix2 p k) := by
  rw [val_main_v8_apply, e8, val_main_v2_apply, e2, val_main_v1_apply, val_main_cst_apply, Ideal.ofBits_def, word_zero, zero_add]
  refine Finset.sum_congr rfl fun k _ => ?_
  rw [e1, val_main_v0_apply, Ideal.mulf_def]

/-- The squared norm of centre `q`, broadcast down its column. -/
theorem normC_at (p : Fin 200000) (q : Fin 256) :
    val_main_v9 (F := Ideal) x1 (ix2 p q) = ∑ k : Fin 256, x1 (ix2 q k) * x1 (ix2 q k) := by
  rw [val_main_v9_apply, e9, val_main_v7_apply, e7, val_main_v4_apply, val_main_cst_0_apply, Ideal.ofBits_def, word_zero, zero_add]
  refine Finset.sum_congr rfl fun k _ => ?_
  rw [e4, val_main_v3_apply, Ideal.mulf_def]

/-- The cross term: the points times the transposed centres. -/
theorem cross_at (p : Fin 200000) (q : Fin 256) :
    val_main_v6 (F := Ideal) x0 x1 (ix2 p q) = ∑ k : Fin 256, x0 (ix2 p k) * x1 (ix2 q k) := by
  rw [val_main_v6_apply]
  refine Finset.sum_congr rfl fun k _ => ?_
  rw [e6l, e6r, val_main_v5_apply, e5]

/-- The clamped squared distance from point `p` to centre `q`. -/
theorem dist_at (p : Fin 200000) (q : Fin 256) :
    val_main_v15 (F := Ideal) x0 x1 (ix2 p q) = dist (row x0 p) (rows x1) q := by
  rw [val_main_v15_apply, val_main_v13_apply, val_main_v10_apply, val_main_v12_apply, normZ_at, normC_at, cross_at,
    val_main_v11_apply, val_main_cst_1_apply, val_main_v14_apply, val_main_cst_2_apply]
  rfl

/-- The Student-t kernel value. -/
theorem kern_at (p : Fin 200000) (q : Fin 256) :
    val_main_v21 (F := Ideal) x0 x1 (ix2 p q) = kern (row x0 p) (rows x1) q := by
  rw [val_main_v21_apply, val_main_v20_apply, val_main_cst_5_apply, val_main_v19_apply, val_main_v18_apply,
    val_main_cst_4_apply, val_main_v17_apply, val_main_v16_apply, val_main_cst_3_apply, dist_at]
  rfl

/-- The weight of centre `q` for point `p`: the kernel value to the power one. -/
theorem weight_at (p : Fin 200000) (q : Fin 256) :
    val_main_v23 (F := Ideal) x0 x1 (ix2 p q) = weightPow (row x0 p) (rows x1) q := by
  rw [val_main_v23_apply, kern_at, val_main_v22_apply, val_main_cst_6_apply]
  rfl

/-- The normaliser: the sum of point `p`'s weights over all the centres, broadcast along its row. -/
theorem total_at (p : Fin 200000) (q : Fin 256) :
    val_main_v26 (F := Ideal) x0 x1 (ix2 p q) = ∑ k : Fin 256, weightPow (row x0 p) (rows x1) k := by
  rw [val_main_v26_apply, e26, val_main_v25_apply, e25, val_main_v24_apply, val_main_cst_7_apply, Ideal.ofBits_def, word_zero,
    zero_add]
  refine Finset.sum_congr rfl fun k _ => ?_
  rw [e24, weight_at]

/-- The reference's result at an entry is the assignment of point `p` to centre `q`. -/
theorem result_at (p : Fin 200000) (q : Fin 256) :
    val_main_v27 (F := Ideal) x0 x1 (ix2 p q) = assignPow (row x0 p) (rows x1) q := by
  rw [val_main_v27_apply, weight_at, total_at]
  rfl

/-- The reference's result is the table of assignments. -/
theorem result_eq : val_main_v27 (F := Ideal) x0 x1 = table assignPow x0 x1 := by
  funext i
  obtain ⟨p, q, rfl⟩ : ∃ (p : Fin 200000) (q : Fin 256), i = ix2 p q := ⟨i 0, i 1, eq_ix2 i⟩
  rw [result_at, table_apply]

end Cert.RefAssign

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.BlockAssign.lean ====
/-
  What the kernel body computes from one block of points and the table of centres, read at an entry.

  The body holds a block of 2000 points (one per row, 256 coordinates each) and all 256 centres. Entry `(p, q)` of its
  result is the soft assignment of the block's point `p` to centre `q`, in the spelling that takes the power through the
  logarithm. The pieces that are not pointwise: a row's sum over its 256 lanes, kept as a column and broadcast back along
  the row; the centres' squared norms, a vector laid as one row and broadcast down the block; and the cross term, the
  matrix-unit product of the block with the transposed centres into a zero accumulator, whose operands are narrowed to
  bf16 first — a change of format, the identity on the extended reals — so that its entry is `∑ k, z (p, k) · c (q, k)`.
-/
import proofs.«178325_j69681549410758_1_alg».proof.Proof.Gen.KernelIdeal.Skeleton
import proofs.«178325_j69681549410758_1_alg».proof.Proof.SoftAssign
import proofs.«178325_j69681549410758_1_alg».proof.Proof.LibRowReduce
import proofs.«178325_j69681549410758_1_alg».proof.Proof.LibPlainMatmul
import Idealize.ShloMosaic.Lib.ValueLayout
import Idealize.ShloMosaic.Lib.ValueIdx
import Idealize.ShloMosaic.PureOps.Ideal.Laws

noncomputable section

open scoped BigOperators

namespace Cert.BlockAssign

open Cert.KernelIdeal Cert.KernelIdeal.Gen
open Idealize.ShloMosaic Idealize.ShloMosaic.ValueIdx Cert.SoftAssign

/-! ## The three pieces that are not pointwise -/

/-- A row's sum over its lanes, kept as a column and broadcast back along the row: at `(p, q)` the sum of row `p`. -/
theorem laneSum_at (X : FVec Ideal S2000x256 .f32) (p : Fin 2000) (q : Fin 256) :
    broadcastTo S2000x256 (shapeCast S2000x1 (multiReduction .add [1] S2000 X 0x00000000#32 reduces_S2000x256_S2000 (.inl rfl) rfl)
      shapeCasts_S2000_S2000x1) broadcasts_S2000x1_S2000x256 (ix2 p q) = ∑ k : Fin 256, X (ix2 p k) :=
  (Cert.RowReduce.broadcastTo_column_apply _ shapeCasts_S2000_S2000x1 broadcasts_S2000x1_S2000x256 p q).trans
    (Cert.RowReduce.multiReduction_add_row X 0x00000000#32 reduces_S2000x256_S2000 (.inl rfl) rfl p)

/-- The sums of the centres' rows, laid as one row and broadcast down the block: at `(p, q)` the sum of row `q`. -/
theorem centreSum_at (Y : FVec Ideal S256x256 .f32) (p : Fin 2000) (q : Fin 256) :
    broadcastTo S2000x256 (shapeCast S1x256 (multiReduction .add [1] S256 Y 0x00000000#32 reduces_S256x256_S256 (.inl rfl) rfl)
      shapeCasts_S256_S1x256) broadcasts_S1x256_S2000x256 (ix2 p q) = ∑ k : Fin 256, Y (ix2 q k) :=
  ((broadcastTo_1b_ab_apply _ broadcasts_S1x256_S2000x256 p q).trans
    (shapeCast_a_1a_apply _ shapeCasts_S256_S1x256 (0 : Fin 1) q)).trans
    (Cert.RowReduce.multiReduction_add_row Y 0x00000000#32 reduces_S256x256_S256 (.inl rfl) rfl q)

/-- The cross term: the block times the transposed centres, both narrowed to bf16, into a zero accumulator. -/
theorem cross_at (v0 : FVec Ideal S2000x256 .f32) (v1 : FVec Ideal S256x256 .f32) (p : Fin 2000) (q : Fin 256) :
    matmul dot_S2000x256_S256x256_S2000x256_1_0_0_1_n_n none (truncf .bf16 v0 bitsLt_bf16_f32)
      (transpose S256x256 [1, 0] (truncf .bf16 v1 bitsLt_bf16_f32) transposes_S256x256_p1_0_S256x256)
      (constant S2000x256 .f32 0x00000000#32) (ix2 p q) = ∑ k : Fin 256, v0 (ix2 p k) * v1 (ix2 q k) := by
  refine (Cert.PlainMatmul.matmul_zero_apply (M := 2000) (K := 256) (N := 256) none _ _ p q).trans ?_
  refine Finset.sum_congr rfl fun k _ => ?_
  rw [truncf_apply, transpose_ix2_apply, truncf_apply]

/-! ## The block's weights, and the body's result -/

/-- The weights the body computes before it normalises them: `exp (1 · log (1 / (1 + max (|z|² + |c|² − 2 z·c) 0 / 1)))`,
    the operations as the body applies them to the whole block. -/
def weights (v0 : FVec Ideal S2000x256 .f32) (v1 : FVec Ideal S256x256 .f32) : FVec Ideal S2000x256 .f32 :=
  exp (mulf (broadcast S2000x256 (Scalar.ofBits .f32 0x3F800000#32))
    (log (divf (broadcast S2000x256 (Scalar.ofBits .f32 0x3F800000#32))
      (addf (broadcast S2000x256 (Scalar.ofBits .f32 0x3F800000#32))
        (divf
          (maximumf
            (subf
              (addf
                (broadcastTo S2000x256 (shapeCast S2000x1 (multiReduction .add [1] S2000 (mulf v0 v0) 0x00000000#32
                  reduces_S2000x256_S2000 (.inl rfl) rfl) shapeCasts_S2000_S2000x1) broadcasts_S2000x1_S2000x256)
                (broadcastTo S2000x256 (shapeCast S1x256 (multiReduction .add [1] S256 (mulf v1 v1) 0x00000000#32
                  reduces_S256x256_S256 (.inl rfl) rfl) shapeCasts_S256_S1x256) broadcasts_S1x256_S2000x256))
              (mulf (broadcast S2000x256 (Scalar.ofBits .f32 0x40000000#32))
                (matmul dot_S2000x256_S256x256_S2000x256_1_0_0_1_n_n none (truncf .bf16 v0 bitsLt_bf16_f32)
                  (transpose S256x256 [1, 0] (truncf .bf16 v1 bitsLt_bf16_f32) transposes_S256x256_p1_0_S256x256)
                  (constant S2000x256 .f32 0x00000000#32))))
            (broadcast S2000x256 (Scalar.ofBits .f32 0x00000000#32)))
          (broadcast S2000x256 (Scalar.ofBits .f32 0x3F800000#32)))))))

/-- The body's stored value is the weights divided by their row sums. -/
theorem payload_eq (v0 : Vec Ideal S2000x256 .f32) (v1 : Vec Ideal S256x256 .f32) :
    k0_pay1 (F := Ideal) v0 v1 = divf (weights v0 v1)
      (broadcastTo S2000x256 (shapeCast S2000x1 (multiReduction .add [1] S2000 (weights v0 v1) 0x00000000#32
        reduces_S2000x256_S2000 (.inl rfl) rfl) shapeCasts_S2000_S2000x1) broadcasts_S2000x1_S2000x256) := rfl

/-- The weight at `(p, q)`: point `p` of the block against centre `q`. -/
theorem weights_at (v0 : FVec Ideal S2000x256 .f32) (v1 : FVec Ideal S256x256 .f32) (p : Fin 2000) (q : Fin 256) :
    weights v0 v1 (ix2 p q) = weightExpLog (row v0 p) (rows v1) q := by
  unfold weights
  show Ideal.exp (Ideal.ofBits .f32 0x3F800000#32 * Ideal.log (Ideal.div (Ideal.ofBits .f32 0x3F800000#32)
    (Ideal.ofBits .f32 0x3F800000#32 + Ideal.div (max ((_ + _) - Ideal.ofBits .f32 0x40000000#32 * _)
      (Ideal.ofBits .f32 0x00000000#32)) (Ideal.ofBits .f32 0x3F800000#32)))) = _
  rw [laneSum_at, centreSum_at, cross_at]
  rfl

/-- The body's stored value at `(p, q)` is the assignment of the block's point `p` to centre `q`. -/
theorem payload_at (v0 : Vec Ideal S2000x256 .f32) (v1 : Vec Ideal S256x256 .f32) (p : Fin 2000) (q : Fin 256) :
    k0_pay1 (F := Ideal) v0 v1 (ix2 p q) = assignExpLog (row v0 p) (rows v1) q := by
  rw [payload_eq, divf_apply, laneSum_at, weights_at]
  exact congrArg (Ideal.div _) (Finset.sum_congr rfl fun k _ => weights_at v0 v1 p k)

end Cert.BlockAssign

end
-- ==== Proof.KernelAssign.lean ====
/-
  The kernel's run leaves the table of soft assignments in its result array.

  The grid has 100 points. Point `t` is handed rows `2000 t … 2000 t + 1999` of the points, all 256 centres, and writes
  back rows `2000 t … 2000 t + 1999` of the result. Row `p` of what it writes is the assignment of the block's point `p`
  — the table's point `2000 t + p` — to the centres, and an assignment depends on that one point and the centres only, so
  what point `t` writes back is block `t` of the whole table. The 100 blocks cover the 200000 rows (row `r` lies in block
  `r / 2000`), so after the run the result array is the table.
-/
import proofs.«178325_j69681549410758_1_alg».proof.Proof.Gen.KernelIdeal.Value
import proofs.«178325_j69681549410758_1_alg».proof.Proof.BlockAssign
import Idealize.ShloMosaic.Lib.Pipeline.Value

noncomputable section

namespace Cert.KernelAssign

open Cert.KernelIdeal Cert.KernelIdeal.Gen Cert.KernelIdeal.Value
open Idealize.ShloMosaic Idealize.ShloMosaic.TcCoe Idealize.SL.Sem Idealize.ShloMosaic.ValueIdx Cert.SoftAssign
open Idealize.ShloMosaic.Pipeline (Dat)

variable (m : (ℓ : Loc nD τ sig) → Buf (Elt Ideal) ℓ) (ρ : Dev nD → PrngReg)

/-- The points as launched, on core `c`. -/
abbrev pts (c : Dev nD) : S200000x256.Idx → EReal := m ((c : Thread nD τ).loc main_arg0)
/-- The centres as launched, on core `c`. -/
abbrev ctr (c : Dev nD) : S256x256.Idx → EReal := m ((c : Thread nD τ).loc main_arg1)
/-- The table of assignments of every point to every centre. -/
abbrev result (c : Dev nD) : S200000x256.Idx → EReal := table assignExpLog (pts m c) (ctr m c)

theorem hz : (![0, 0] : Fin 2 → Nat) = fun _ => 0 := funext fun a => by fin_cases a <;> rfl

/-- The block indices over the grid: point `t` reads block row `t` of the points, the one block of the centres, and
    writes block row `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the points' block at point `t` is entry `(2000 t + p, k)` of the points. -/
theorem pts_block (c : Dev nD) (t : Fin cfg0.N) (x : S2000x256.Idx) (i : S200000x256.Idx)
    (h0 : (i 0).val = t.val * 2000 + (x 0).val) (h1 : (i 1).val = (x 1).val) :
    (iblk m c 0 t : Vec Ideal S2000x256 .f32) x = pts m c i := by
  obtain ⟨e0, e1, -, -, -, -⟩ := idx_facts t
  unfold iblk
  rw [View.read_apply]
  show V m c main_arg0 _ = V m c main_arg0 i
  refine congrArg (V m c main_arg0) (funext fun a => Fin.ext ?_)
  match a with
  | ⟨0, _⟩ => show win0_0.index t (0 : Fin 2) * 2000 + 1 * (x 0).val = (i 0).val; omega
  | ⟨1, _⟩ => show win0_0.index t (1 : Fin 2) * 256 + 1 * (x 1).val = (i 1).val; omega

/-- The centres' block at every point is the table of centres. -/
theorem ctr_block (c : Dev nD) (t : Fin cfg0.N) (x : S256x256.Idx) :
    (iblk m c 1 t : Vec Ideal S256x256 .f32) x = ctr m c x := by
  obtain ⟨-, -, e0, e1, -, -⟩ := idx_facts t
  unfold iblk
  rw [View.read_apply]
  show V m c main_arg1 _ = V m c main_arg1 x
  refine congrArg (V m c main_arg1) (funext fun a => Fin.ext ?_)
  match a with
  | ⟨0, _⟩ => show win0_1.index t (0 : Fin 2) * 256 + 1 * (x 0).val = (x 0).val; omega
  | ⟨1, _⟩ => show win0_1.index t (1 : Fin 2) * 256 + 1 * (x 1).val = (x 1).val; omega

/-- What point `t` writes back is block `t` of the table. -/
theorem flushed_eq (c : Dev nD) (t : Fin cfg0.N) :
    (dats m 0 c).flushed 2 t = ((cfg0.win 2).blk t).view.read (Elt Ideal) (result m c) := by
  have hN : cfg0.N = 100 := N_0
  have ht : t.val < 100 := hN ▸ t.isLt
  obtain ⟨-, -, -, -, e0, e1⟩ := idx_facts t
  rw [Value.flushed2]
  unfold out0_2
  rw [View.canon_unit_zero hz]
  simp only [View.ld_unit_zero (S := S2000x256) hz, View.ld_unit_zero (S := S256x256) hz]
  refine funext fun (j : S2000x256.Idx) => ?_
  obtain ⟨p, q, rfl⟩ : ∃ (p : Fin 2000) (q : Fin 256), j = ix2 p q := ⟨j 0, j 1, eq_ix2 j⟩
  show k0_pay1 (F := Ideal) (iblk m c 0 t) (iblk m c 1 t) (ix2 p q) = result m c (((cfg0.win 2).blk t).view.emb (ix2 p q))
  have hp : p.val < 2000 := p.isLt
  have hI : ((cfg0.win 2).blk t).view.emb (ix2 p q) = ix2 (⟨t.val * 2000 + p.val, by omega⟩ : Fin 200000) q := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  rw [hI]
  show _ = table assignExpLog (pts m c) (ctr m c) (ix2 (⟨t.val * 2000 + p.val, by omega⟩ : Fin 200000) q)
  rw [table_apply]
  refine (Cert.BlockAssign.payload_at (iblk m c 0 t) (iblk m c 1 t) p q).trans ?_
  have hrow : row (iblk m c 0 t) p = row (pts m c) (⟨t.val * 2000 + p.val, by omega⟩ : Fin 200000) :=
    funext fun k => pts_block m c t (ix2 p k) (ix2 (⟨t.val * 2000 + p.val, by omega⟩ : Fin 200000) k) rfl rfl
  have hrows : rows (iblk m c 1 t) = rows (ctr m c) :=
    funext fun b => funext fun k => ctr_block m c t (ix2 b k)
  rw [hrow, hrows]

/-- An index of the result array is in point `t`'s block iff each coordinate is in the block's range on its axis. -/
theorem mem_blk (t : Fin cfg0.N) (i : S200000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Every index of the result array lies in some point's block: row `r` in the block of point `r / 2000`. -/
theorem cover (i : S200000x256.Idx) :
    ∃ t : Fin cfg0.N, (cfg0.win 2).flush t = true ∧ i ∈ ((cfg0.win 2).blk t).view.set := by
  have hN : cfg0.N = 100 := N_0
  have hi0 : (i 0).val < 200000 := (i 0).isLt
  have hi1 : (i 1).val < 256 := (i 1).isLt
  have hlt : (i 0).val / 2000 < cfg0.N := by rw [hN]; omega
  obtain ⟨-, -, -, -, e0, e1⟩ := idx_facts ⟨(i 0).val / 2000, hlt⟩
  have e0' : win0_2.index ⟨(i 0).val / 2000, hlt⟩ (0 : Fin 2) = (i 0).val / 2000 := e0
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-- So after the run the result array is the table. -/
theorem final (c : Dev nD) : (dats m 0 c).arrAt 2 cfg0.N = result m c :=
  (dats m 0 c).arrAt_eq_of_cover 2 (result m c) (fun t _ => flushed_eq m c t) cover

/-- The kernel's run: every weakly fair execution ends with the result array at the table of assignments and the
    points and the centres unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelAssign

end
-- ==== Proof.lean ====
/-
  Student-t soft cluster assignment: a tiled kernel against its plain reference, equal over the extended reals.

  Both programs take 200000 points and 256 centres, each of 256 coordinates, and return for every point its soft
  assignment to every centre: the squared distance `|z|² + |c|² − 2 z·c` clamped below at zero, the Student-t kernel
  `q = 1 / (1 + d / 1)`, the weight `q` to the power one, and the weights of a point divided by their sum over the
  centres. The kernel sweeps the points in 100 blocks of 2000 rows, narrows the operands of its cross term to bf16 (the
  identity on the extended reals) and takes the power as `exp (1 · log q)`; the reference works on the whole table and
  takes the power as `q ^ 1`.

  The one law that joins the two sides is `exp (1 · log q) = q ^ 1` for `q ≥ 0` (Proof/SoftAssign.lean); it applies
  because the clamp makes `q` non-negative at every input, so the precondition is never opened. The rest is reading:
  the reference's result entry by entry (Proof/RefAssign.lean, over the generated read-at-an-index module), the kernel
  body's stored value entry by entry (Proof/BlockAssign.lean), and the 100 written blocks as the blocks of one table
  that cover the result array (Proof/KernelAssign.lean, over the generated blockwise value leg). The three frames are the
  generated ones, and the kernel's idealization rewrote nothing.
-/
import proofs.«178325_j69681549410758_1_alg».proof.Defs
import proofs.«178325_j69681549410758_1_alg».proof.Proof.Gen.Kernel
import proofs.«178325_j69681549410758_1_alg».proof.Proof.Gen.Kernel.Skeleton
import proofs.«178325_j69681549410758_1_alg».proof.Proof.Gen.Kernel.Launch
import proofs.«178325_j69681549410758_1_alg».proof.Proof.Gen.Kernel.Points
import proofs.«178325_j69681549410758_1_alg».proof.Proof.Gen.Kernel.Frame
import proofs.«178325_j69681549410758_1_alg».proof.Proof.Gen.KernelIdeal
import proofs.«178325_j69681549410758_1_alg».proof.Proof.Gen.KernelIdeal.Skeleton
import proofs.«178325_j69681549410758_1_alg».proof.Proof.Gen.KernelIdeal.Launch
import proofs.«178325_j69681549410758_1_alg».proof.Proof.Gen.KernelIdeal.Points
import proofs.«178325_j69681549410758_1_alg».proof.Proof.Gen.KernelIdeal.Frame
import proofs.«178325_j69681549410758_1_alg».proof.Proof.Gen.ReferenceIdeal
import proofs.«178325_j69681549410758_1_alg».proof.Proof.Gen.Pre_finite_inputs
import proofs.«178325_j69681549410758_1_alg».proof.Proof.Gen.KernelIdeal.Value
import proofs.«178325_j69681549410758_1_alg».proof.Proof.Gen.ReferenceIdeal.Run
import proofs.«178325_j69681549410758_1_alg».proof.Proof.Gen.ReferenceIdeal.Read
import proofs.«178325_j69681549410758_1_alg».proof.Proof.RefAssign
import proofs.«178325_j69681549410758_1_alg».proof.Proof.KernelAssign
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the points and the centres, the kernel's result array ends at the table of assignments
    with the power taken through the logarithm, the reference's at the table with the power taken as a power: one
    table, since the kernel value is never negative. -/
theorem algebraic : Cert.algebraic_KernelIdeal_ReferenceIdeal := by
  intro m ρ m' ρ' _ hagree
  refine ⟨fun c => Cert.KernelAssign.result m c, Cert.KernelAssign.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefAssign.result_eq, (hagree c).1, (hagree c).2]
  exact (Cert.SoftAssign.table_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
